-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 22
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KBody.lean ====
import proofs.«136303_j20255065767968_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A middle step of the contraction (neither its first nor its last block): the accumulator, found holding
    `acc`, is left holding `acc` plus the product of this step's two blocks. -/
theorem scratch_B (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .f32) (x1 : Vec F S1024x1024 .bf16) (x2 : Vec F S1x1024 .f32) (acc : Vec F S1024x1024 .f32) :
    sout0_B_0 c i a3 h3 a4 h4 a5 h5 a6 h6 a7 h7 hc0 hc1 x0 x1 x2 acc = k0_pay2 x0 acc x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h7.read_unread, View.ld_unit_zero (S := S1024x1024) hz]

/-- The last step of the contraction leaves the accumulator as a middle step does: what it found plus the product
    of the step's two blocks. -/
theorem scratch_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (acc : Vec F S1024x1024 .f32) :
    sout0_C_0 c i a3 h3 a4 h4 a5 h5 a6 h6 a7 h7 hc0 hc1 x0 x1 x2 acc = k0_pay2 x0 acc x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h7.read_unread, View.ld_unit_zero (S := S1024x1024) hz]

/-- The last step also writes the output block: the finished accumulator plus the bias row on every row. -/
theorem out_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (acc : Vec F S1024x1024 .f32) :
    out0_C_3 c i a3 h3 a4 h4 a5 h5 a6 h6 a7 h7 hc0 hc1 x0 x1 x2 acc = k0_pay3 (k0_pay2 x0 acc x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

/-- The first step of the contraction stores the zero block into the accumulator and then adds the product of the
    step's two blocks to it. -/
theorem scratch_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = k0_pay2 x0 k0_pay1 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Body

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KPay.lean ====
import proofs.«136303_j20255065767968_1_alg».proof.Proof.Gen.KernelIdeal.Skeleton
import proofs.«136303_j20255065767968_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Pay

open Cert.KernelIdeal Cert.KernelIdeal.Gen

/-- The block the first step of a contraction stores into the accumulator is zero everywhere. -/
theorem zero_apply (p q : Fin 1024) : k0_pay1 (F := Ideal) (ix2 p q) = 0 := by
  unfold k0_pay1
  rw [shapeCast_self]
  exact Ideal.ofBits_zero_f32

/-- One step of the contraction at an entry: the accumulator's entry (p, q) plus the product of the step's two blocks
    there, the sum over the block's 1024 contraction positions j of x (p, j) · w (j, q); rounding the left block
    to bf16 changes nothing over the extended reals. -/
theorem step_apply (x : Vec Ideal S1024x1024 .f32) (acc : Vec Ideal S1024x1024 .f32) (w : Vec Ideal S1024x1024 .bf16)
    (p q : Fin 1024) :
    k0_pay2 x acc w (ix2 p q) = acc (ix2 p q) + ∑ j : Fin 1024, x (ix2 p j) * w (ix2 j q) := by
  unfold k0_pay2
  rw [shapeCast_self, shapeCast_self, shapeCast_self]
  show acc (ix2 p q) + _ = _
  refine congrArg (acc (ix2 p q) + ·) ?_
  exact Cert.Lib.PlainDot.matmul_plain_zero_apply (M := 1024) (K := 1024) (N := 1024) none _ w p q

/-- The output block at an entry: the finished accumulator's entry (p, q) plus entry q of the bias row. -/
theorem bias_apply (v : Vec Ideal S1024x1024 .f32) (b : Vec Ideal S1x1024 .f32) (p q : Fin 1024) :
    k0_pay3 v b (ix2 p q) = v (ix2 p q) + b (ix2 (0 : Fin 1) q) := by
  unfold k0_pay3
  rw [shapeCast_self]
  show v (ix2 p q) + _ = _
  refine congrArg (v (ix2 p q) + ·) ?_
  exact broadcastTo_1b_ab_apply b _ p q

end Cert.KernelIdeal.Pay

end
-- ==== Proof.KBlocks.lean ====
import proofs.«136303_j20255065767968_1_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

/-- A two-axis array read at natural-number coordinates: its entry where both are inside the array, zero outside. -/
def at2 {R K : Nat} (A : (⟨2, ![R, K]⟩ : Shape).Idx → EReal) (r k : Nat) : EReal :=
  if h : r < R ∧ k < K then A (ix2 ⟨r, h.1⟩ ⟨k, h.2⟩) else 0

theorem at2_fin {R K : Nat} (A : (⟨2, ![R, K]⟩ : Shape).Idx → EReal) (r : Fin R) (k : Fin K) :
    at2 A r.val k.val = A (ix2 r k) := by
  unfold at2; rw [dif_pos ⟨r.isLt, k.isLt⟩]

variable (m : (ℓ : Loc nD τ sig) → Buf (Elt Ideal) ℓ)

/-- The grid is 16 row tiles × 4 column tiles × 4 contraction steps, the contraction step moving fastest: at point
    `t` the row tile is `t / 16`, the column tile `t / 4 % 4`, the step `t % 4`; each window's block indices are these
    (decided over the 256 points). -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left operand's block at point `t`: rows `1024 · (t / 16) + p`, contraction positions `1024 · (t % 4) + j` of the
    row-flattened input. -/
theorem x_blk (c : Dev nD) (t : Fin cfg0.N) (p j : Fin 1024) :
    (iblk m c 0 t : Vec Ideal S1024x1024 .f32) (ix2 p j)
      = at2 (R := 16384) (K := 4096) (V m c main_v12) (1024 * (t.val / 16) + p.val) (1024 * (t.val % 4) + j.val) := by
  have hN : t.val < 256 := lt_of_lt_of_eq t.isLt (show cfg0.N = 256 from N_0)
  obtain ⟨e0, e1, -⟩ := idx_facts t
  unfold at2
  rw [dif_pos ⟨by omega, by omega⟩]
  unfold iblk
  rw [View.read_apply]
  show V m c main_v12 (((cfg0.win 0).blk t).view.emb (ix2 p j)) = V m c main_v12 _
  refine congrArg (V m c main_v12) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * j.val = 1024 * (t.val % 4) + j.val; rw [e1]; omega

/-- The right operand's block at point `t`: contraction positions `1024 · (t % 4) + j`, columns `1024 · (t / 4 % 4) + q`
    of the transposed ternary weights. -/
theorem w_blk (c : Dev nD) (t : Fin cfg0.N) (j q : Fin 1024) :
    (iblk m c 1 t : Vec Ideal S1024x1024 .bf16) (ix2 j q)
      = at2 (R := 4096) (K := 4096) (V m c main_v11) (1024 * (t.val % 4) + j.val) (1024 * (t.val / 4 % 4) + q.val) := by
  have hN : t.val < 256 := lt_of_lt_of_eq t.isLt (show cfg0.N = 256 from N_0)
  obtain ⟨-, -, e0, e1, -⟩ := idx_facts t
  unfold at2
  rw [dif_pos ⟨by omega, by omega⟩]
  unfold iblk
  rw [View.read_apply]
  show V m c main_v11 (((cfg0.win 1).blk t).view.emb (ix2 j q)) = V m c main_v11 _
  refine congrArg (V m c main_v11) (funext fun a => Fin.ext ?_)
  match a with
  | ⟨0, _⟩ => show win0_1.index t (0 : Fin 2) * 1024 + 1 * j.val = 1024 * (t.val % 4) + j.val; rw [e0]; omega
  | ⟨1, _⟩ => show win0_1.index t (1 : Fin 2) * 1024 + 1 * q.val = 1024 * (t.val / 4 % 4) + q.val; rw [e1]; omega

/-- The bias block at point `t`: columns `1024 · (t / 4 % 4) + q` of the bias row. -/
theorem b_blk (c : Dev nD) (t : Fin cfg0.N) (q : Fin 1024) :
    (iblk m c 2 t : Vec Ideal S1x1024 .f32) (ix2 (0 : Fin 1) q)
      = at2 (R := 1) (K := 4096) (V m c main_v13) 0 (1024 * (t.val / 4 % 4) + q.val) := by
  have hN : t.val < 256 := lt_of_lt_of_eq t.isLt (show cfg0.N = 256 from N_0)
  obtain ⟨-, -, -, -, e0, e1, -⟩ := idx_facts t
  unfold at2
  rw [dif_pos ⟨by omega, by omega⟩]
  unfold iblk
  rw [View.read_apply]
  show V m c main_v13 (((cfg0.win 2).blk t).view.emb (ix2 (0 : Fin 1) q)) = V m c main_v13 _
  refine congrArg (V m c main_v13) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-- The three input blocks of point `t`, as arrays of extended reals. -/
abbrev xBlock (c : Dev nD) (t : Fin cfg0.N) : Vec Ideal S1024x1024 .f32 := iblk m c 0 t
abbrev wBlock (c : Dev nD) (t : Fin cfg0.N) : Vec Ideal S1024x1024 .bf16 := iblk m c 1 t
abbrev bBlock (c : Dev nD) (t : Fin cfg0.N) : Vec Ideal S1x1024 .f32 := iblk m c 2 t

theorem xBlock_apply (c : Dev nD) (t : Fin cfg0.N) (p j : Fin 1024) :
    xBlock m c t (ix2 p j) = at2 (R := 16384) (K := 4096) (V m c main_v12) (1024 * (t.val / 16) + p.val) (1024 * (t.val % 4) + j.val) :=
  x_blk m c t p j
theorem wBlock_apply (c : Dev nD) (t : Fin cfg0.N) (j q : Fin 1024) :
    wBlock m c t (ix2 j q) = at2 (R := 4096) (K := 4096) (V m c main_v11) (1024 * (t.val % 4) + j.val) (1024 * (t.val / 4 % 4) + q.val) :=
  w_blk m c t j q
theorem bBlock_apply (c : Dev nD) (t : Fin cfg0.N) (q : Fin 1024) :
    bBlock m c t (ix2 (0 : Fin 1) q) = at2 (R := 1) (K := 4096) (V m c main_v13) 0 (1024 * (t.val / 4 % 4) + q.val) :=
  b_blk m c t q

end Cert.KernelIdeal.Blocks

end
-- ==== Proof.LibBlockSum.lean ====
/-
  A sum over a range cut into consecutive blocks of equal length.

  For any function `h` on the naturals with values in a commutative additive monoid (the extended reals among them:
  their addition is commutative and associative, infinities included), the sum of `h` over the first `B * n`
  naturals is the sum, over the `n` consecutive blocks of length `B`, of `h` over each block — position `j` of
  block `s` being the natural `B * s + j`.  With the sums over `Fin` types: a contraction of length `B * n`
  carried out `B` positions at a time, block after block, is the whole contraction.  Only the monoid laws are used,
  so no finiteness of the summands is needed.
-/
import Mathlib.Algebra.BigOperators.Fin
import Mathlib.Algebra.BigOperators.Intervals

namespace Cert.Lib.BlockSum

open Finset

variable {M : Type*} [AddCommMonoid M]

/-- The sum over the first `B * n` naturals is the sum of the `n` block sums. -/
theorem sum_range_blocks (h : ℕ → M) (B : ℕ) :
    ∀ n : ℕ, ∑ s ∈ range n, ∑ j ∈ range B, h (B * s + j) = ∑ k ∈ range (B * n), h k
  | 0 => by simp
  | n + 1 => by
    rw [sum_range_succ, sum_range_blocks h B n, Nat.mul_succ, sum_range_add]

/-- The same with the positions inside a block, and the whole range, indexed by `Fin` types. -/
theorem sum_fin_blocks (h : ℕ → M) (B n N : ℕ) (hN : N = B * n) :
    ∑ s ∈ range n, ∑ j : Fin B, h (B * s + j.val) = ∑ k : Fin N, h k.val := by
  subst hN
  rw [Fin.sum_univ_eq_sum_range (fun k => h k) (B * n), ← sum_range_blocks h B n]
  exact sum_congr rfl fun s _ => Fin.sum_univ_eq_sum_range (fun j => h (B * s + j)) B

end Cert.Lib.BlockSum
-- ==== Proof.KAcc.lean ====
import proofs.«136303_j20255065767968_1_alg».proof.Proof.Gen.KernelIdeal.Frame
import proofs.«136303_j20255065767968_1_alg».proof.Proof.KBody
import proofs.«136303_j20255065767968_1_alg».proof.Proof.KPay
import proofs.«136303_j20255065767968_1_alg».proof.Proof.KBlocks
import proofs.«136303_j20255065767968_1_alg».proof.Proof.LibBlockSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Blocks

variable (m : (ℓ : Loc nD τ sig) → Buf (Elt Ideal) ℓ)

/-- If a pair is `(a, b)`, its first component is `a` and its second is `b`. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

/-- What the accumulator holds after point `n`. -/
abbrev accAfter (c : Dev nD) (n : ℕ) (h : n < cfg0.N) : Vec Ideal S1024x1024 .f32 := (outsAt0 m c n h).2

/-- The accumulator after the first step of a contraction: the zero block plus the step's product. -/
abbrev first (c : Dev nD) (n : ℕ) (h : n < cfg0.N) : Vec Ideal S1024x1024 .f32 :=
  k0_pay2 (iblk m c 0 ⟨n, h⟩) (k0_pay1 (F := Ideal)) (iblk m c 1 ⟨n, h⟩)

/-- The accumulator after a later step, from what the step before left in it. -/
abbrev next (c : Dev nD) (n : ℕ) (h : n < cfg0.N) (acc : Vec Ideal S1024x1024 .f32) : Vec Ideal S1024x1024 .f32 :=
  k0_pay2 (iblk m c 0 ⟨n, h⟩) acc (iblk m c 1 ⟨n, h⟩)

/-- At the first step of a contraction (step 0 of 4) the accumulator is reset. -/
theorem acc_first (c : Dev nD) (n : ℕ) (h : n < cfg0.N) (h0 : n % 4 = 0) : accAfter m c n h = first m c n h := by
  have h1 : ¬(⟨n, h⟩ : Fin cfg0.N).val % 4 = 3 := by dsimp only; omega
  refine (snd_of_eq (outsAt0_A m c ⟨n, h⟩ h0 h1)).trans ?_
  exact Body.scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩)

/-- The point before point `n + 1` is point `n`. -/
theorem acc_pred (c : Dev nD) (n : ℕ) (h : n < cfg0.N) (k : ℕ) (hk : k < cfg0.N) (e : k = n) :
    (outsAt0 m c k hk).2 = accAfter m c n h := by
  subst e; rfl

/-- At every later step it is stepped from what the point before left. -/
theorem acc_next (c : Dev nD) (n : ℕ) (h : n + 1 < cfg0.N) (h0 : ¬(n + 1) % 4 = 0) :
    accAfter m c (n + 1) h = next m c (n + 1) h (accAfter m c n (Nat.lt_of_succ_lt h)) := by
  have hp := acc_pred m c n (Nat.lt_of_succ_lt h) ((⟨n + 1, h⟩ : Fin cfg0.N).val - 1)
    (Nat.lt_of_le_of_lt (Nat.sub_le _ _) (⟨n + 1, h⟩ : Fin cfg0.N).isLt) (Nat.add_sub_cancel n 1)
  by_cases h1 : (n + 1) % 4 = 3
  · refine (snd_of_eq (outsAt0_C m c ⟨n + 1, h⟩ h0 h1)).trans ?_
    refine (Body.scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩)
      (outsAt0 m c ((⟨n + 1, h⟩ : Fin cfg0.N).val - 1) (Nat.lt_of_le_of_lt (Nat.sub_le _ _) (⟨n + 1, h⟩ : Fin cfg0.N).isLt)).2).trans ?_
    exact congrArg (fun a => k0_pay2 (iblk m c 0 ⟨n + 1, h⟩) a (iblk m c 1 ⟨n + 1, h⟩)) hp
  · refine (snd_of_eq (outsAt0_B m c ⟨n + 1, h⟩ h0 h1)).trans ?_
    refine (Body.scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩)
      (outsAt0 m c ((⟨n + 1, h⟩ : Fin cfg0.N).val - 1) (Nat.lt_of_le_of_lt (Nat.sub_le _ _) (⟨n + 1, h⟩ : Fin cfg0.N).isLt)).2).trans ?_
    exact congrArg (fun a => k0_pay2 (iblk m c 0 ⟨n + 1, h⟩) a (iblk m c 1 ⟨n + 1, h⟩)) hp

end Cert.KernelIdeal.Acc

end
-- ==== Proof.KFold.lean ====
import proofs.«136303_j20255065767968_1_alg».proof.Proof.KAcc

noncomputable section

open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Blocks

variable (m : (ℓ : Loc nD τ sig) → Buf (Elt Ideal) ℓ)

/-- What point `n`'s step adds to entry `y` of the accumulator: the product of the point's two blocks there — the sum,
    over the 1024 contraction positions of step `n % 4`, of the left operand's row times the right operand's column. -/
def addend (c : Dev nD) (n : ℕ) (y : S1024x1024.Idx) : EReal :=
  ∑ j : Fin 1024, at2 (R := 16384) (K := 4096) (V m c main_v12) (1024 * (n / 16) + (y 0).val) (1024 * (n % 4) + j.val)
    * at2 (R := 4096) (K := 4096) (V m c main_v11) (1024 * (n % 4) + j.val) (1024 * (n / 4 % 4) + (y 1).val)

/-- The product of the two blocks of point `t` at an entry is the point's addend. -/
theorem blocks_prod (c : Dev nD) (t : Fin cfg0.N) (p q : Fin 1024) :
    ∑ j : Fin 1024, xBlock m c t (ix2 p j) * wBlock m c t (ix2 j q) = addend m c t.val (ix2 p q) := by
  unfold addend
  exact Finset.sum_congr rfl fun j _ => by rw [xBlock_apply, wBlock_apply]

/-- After a contraction's first step an entry of the accumulator is zero plus the step's addend. -/
theorem first_apply (c : Dev nD) (n : ℕ) (h : n < cfg0.N) (y : S1024x1024.Idx) :
    first m c n h y = 0 + addend m c n y := by
  obtain ⟨p, q, rfl⟩ : ∃ (p q : Fin 1024), y = ix2 p q := ⟨y 0, y 1, eq_ix2 y⟩
  refine (Pay.step_apply (iblk m c 0 ⟨n, h⟩) (k0_pay1 (F := Ideal)) (iblk m c 1 ⟨n, h⟩) p q).trans ?_
  exact congrArg₂ (fun a b : EReal => a + b) (Pay.zero_apply p q) (blocks_prod m c ⟨n, h⟩ p q)

/-- A later step adds its addend to what the accumulator's entry held. -/
theorem next_apply (c : Dev nD) (n : ℕ) (h : n < cfg0.N) (acc : Vec Ideal S1024x1024 .f32) (y : S1024x1024.Idx) :
    next m c n h acc y = acc y + addend m c n y := by
  obtain ⟨p, q, rfl⟩ : ∃ (p q : Fin 1024), y = ix2 p q := ⟨y 0, y 1, eq_ix2 y⟩
  refine (Pay.step_apply (iblk m c 0 ⟨n, h⟩) acc (iblk m c 1 ⟨n, h⟩) p q).trans ?_
  exact congrArg (fun b : EReal => acc (ix2 p q) + b) (blocks_prod m c ⟨n, h⟩ p q)

/-- THE FOLD: after point `t` the accumulator holds, at every entry, zero plus the addends of the steps
    `0 … t % 4` of the contraction the point belongs to (points `4 · (t / 4) … t`). -/
theorem acc_eq_sum (c : Dev nD) (t : ℕ) (ht : t < cfg0.N) (y : S1024x1024.Idx) :
    accAfter m c t ht y = 0 + ∑ s ∈ Finset.range (t % 4 + 1), addend m c (4 * (t / 4) + s) y := by
  have h' : 4 * (t / 4) + t % 4 < cfg0.N := by rw [Nat.div_add_mod]; exact ht
  rw [Pipeline.eq_accAt_of_mod (fun n h => accAfter m c n h) 4 (fun n h => first m c n h) (fun n h acc => next m c n h acc)
    (fun n h h0 => acc_first m c n h h0) (fun n h h0 => acc_next m c n h h0) (by decide) t ht h']
  exact Pipeline.accAt_add_apply (fun n h => first m c n h) (fun n h acc => next m c n h acc) (fun _ => 0)
    (fun n y => addend m c n y) (4 * (t / 4)) 3 (fun h y => first_apply m c _ h y)
    (fun n h acc y _ _ => next_apply m c n h acc y) (t % 4) (by omega) h' y

end Cert.KernelIdeal.Acc

end
-- ==== Proof.KFinal.lean ====
import proofs.«136303_j20255065767968_1_alg».proof.Proof.KFold

noncomputable section

open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Blocks

variable (m : (ℓ : Loc nD τ sig) → Buf (Elt Ideal) ℓ)

/-- Entry (r, o) of the region's result: zero plus the whole contraction — the sum over all 4096 positions k of the
    left operand's (r, k) times the right operand's (k, o) — plus the bias row's entry o. -/
def rowDot (X : (⟨2, ![16384, 4096]⟩ : Shape).Idx → EReal) (WT : (⟨2, ![4096, 4096]⟩ : Shape).Idx → EReal)
    (B : (⟨2, ![1, 4096]⟩ : Shape).Idx → EReal) (r o : ℕ) : EReal :=
  (0 + ∑ k : Fin 4096, at2 X r k.val * at2 WT k.val o) + at2 B 0 o

/-- The four steps' addends of contraction `q` (row tile `q / 4`, column tile `q % 4`), at an entry of the output tile, add
    up to the whole contraction at the array's entry: the steps cut the 4096 positions into four consecutive runs of 1024. -/
theorem steps_sum (c : Dev nD) (q : ℕ) (p o : Fin 1024) :
    ∑ s ∈ Finset.range 4, addend m c (4 * q + s) (ix2 p o)
      = ∑ k : Fin 4096, at2 (R := 16384) (K := 4096) (V m c main_v12) (1024 * (q / 4) + p.val) k.val
          * at2 (R := 4096) (K := 4096) (V m c main_v11) k.val (1024 * (q % 4) + o.val) := by
  rw [← Cert.Lib.BlockSum.sum_fin_blocks (fun k => at2 (R := 16384) (K := 4096) (V m c main_v12) (1024 * (q / 4) + p.val) k
      * at2 (R := 4096) (K := 4096) (V m c main_v11) k (1024 * (q % 4) + o.val)) 1024 4 4096 rfl]
  refine Finset.sum_congr rfl fun s hs => ?_
  have hs4 : s < 4 := Finset.mem_range.mp hs
  have e1 : (4 * q + s) / 16 = q / 4 := by omega
  have e2 : (4 * q + s) % 4 = s := by omega
  have e3 : (4 * q + s) / 4 % 4 = q % 4 := by omega
  unfold addend
  rw [e1, e2, e3]

/-- At the last step of a contraction the output block holds, entry by entry, the region's result at the array's
    entry: row `1024 · (t / 16) + p`, column `1024 · (t / 4 % 4) + o`. -/
theorem out_block (c : Dev nD) (t : Fin cfg0.N) (h3 : t.val % 4 = 3) (p o : Fin 1024) :
    (outsAt0 m c t.val t.isLt).1 (ix2 p o)
      = rowDot (V m c main_v12) (V m c main_v11) (V m c main_v13) (1024 * (t.val / 16) + p.val) (1024 * (t.val / 4 % 4) + o.val) := by
  have h0 : ¬t.val % 4 = 0 := by omega
  have hN : t.val < 256 := lt_of_lt_of_eq t.isLt (show cfg0.N = 256 from N_0)
  have hc0 : ¬cond0_0 (grid0.coords t) := fun h' => h0 ((hcond0_0 t).mp h')
  have hc1 : cond0_1 (grid0.coords t) := (hcond0_1 t).mpr h3
  generalize hprev : (outsAt0 m c (t.val - 1) (Nat.lt_of_le_of_lt (Nat.sub_le _ _) t.isLt)).2 = prev
  have eC := outsAt0_C m c t h0 h3
  rw [hprev] at eC
  have e1 := (fst_of_eq eC).trans (Body.out_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev)
  have e2 : accAfter m c t.val t.isLt = k0_pay2 (iblk m c 0 t) prev (iblk m c 1 t) :=
    (snd_of_eq eC).trans (Body.scratch_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev)
  rw [e1, ← e2]
  refine (Pay.bias_apply (accAfter m c t.val t.isLt) (iblk m c 2 t) p o).trans ?_
  unfold rowDot
  refine congrArg₂ (fun a b : EReal => a + b) ?_ (bBlock_apply m c t o)
  rw [acc_eq_sum m c t.val t.isLt (ix2 p o), h3]
  refine congrArg (fun b : EReal => 0 + b) ?_
  have e16 : t.val / 16 = t.val / 4 / 4 := by omega
  rw [e16]
  exact steps_sum m c (t.val / 4) p o

end Cert.KernelIdeal.Acc

end
-- ==== Proof.KHead.lean ====
import proofs.«136303_j20255065767968_1_alg».proof.Proof.Gen.KernelIdeal.Frame.Runs
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Head

open Cert.KernelIdeal Cert.KernelIdeal.Gen

/-- The ternary weights as the kernel's host prologue computes them from `W`: the sign of each entry where its absolute
    value exceeds the threshold `0.5 · (Σ|W| / 2^24)`, zero elsewhere. -/
def ternary {F : FTy → Type} [FloatOps F] (W : (⟨S4096x4096, .f32⟩ : BufTy).Contents (Elt F)) : (⟨S4096x4096, .f32⟩ : BufTy).Contents (Elt F) :=
  mulf (Host.sign W) (uitofp .f32 (cmpf .ogt (Host.absf W) (broadcastInDim S4096x4096 ![] bcast_S_S4096x4096
    (mulf (constant S_ .f32 0x3F000000#32) (Host.divf (Host.reduceAdd (Host.absf W) (constant S_ .f32 0x00000000#32) reducesTo_S4096x4096_S_d0_1 h_S_) (constant S_ .f32 0x4B800000#32))))))

variable (m : (ℓ : Loc nD τ sig) → Buf (Elt Ideal) ℓ)

/-- The region's left operand is the input with its two leading axes flattened: row `2048 · a + s` is `x[a, s, ·]`. -/
theorem x_rows (c : Dev nD) (a : Fin 8) (s : Fin 2048) (k : Fin 4096) (r : Fin 16384) (hr : r.val = 2048 * a.val + s.val) :
    V m c main_v12 (ix2 r k) = m ((c : Thread nD τ).loc main_arg0) (ix3 a s k) := by
  have e : V m c main_v12 = shapeCast S16384x4096 (m ((c : Thread nD τ).loc main_arg0)) shapeCasts_S8x2048x4096_S16384x4096 := by
    show StableHlo.after hostOps0 (fun b => m (c, b)) (Proc.devRef .tc main_v12) = _
    after_results
    rfl
  rw [e]
  refine shapeCast_apply _ _ (ix2 r k) (ix3 a s k) ?_
  rw [Shape.rowMajor_val_three, Shape.rowMajor_val_two]
  show (a.val * 2048 + s.val) * 4096 + k.val = r.val * 4096 + k.val
  rw [hr]; ring

/-- The region's right operand is the transposed ternary weights (rounding them to bf16 changes nothing over the
    extended reals): entry (k, o) is the ternary weight (o, k). -/
theorem w_entry (c : Dev nD) (k o : Fin 4096) :
    V m c main_v11 (ix2 k o) = ternary (m ((c : Thread nD τ).loc main_arg1)) (ix2 o k) := by
  have e : V m c main_v11 = truncf .bf16 (transpose S4096x4096 [1, 0] (ternary (m ((c : Thread nD τ).loc main_arg1))) transposes_S4096x4096_S4096x4096_1_0) bitsLt_bf16_f32 := by
    show StableHlo.after hostOps0 (fun b => m (c, b)) (Proc.devRef .tc main_v11) = _
    after_results
    rfl
  rw [e]
  have h1 : ∀ (v : FVec Ideal S4096x4096 .f32), (truncf .bf16 v bitsLt_bf16_f32 : FVec Ideal S4096x4096 .bf16) (ix2 k o) = v (ix2 k o) :=
    fun v => rfl
  rw [h1]
  exact transpose_apply [1, 0] _ _ (ix2 k o) (ix2 o k) (fun b => by match b with | ⟨0, _⟩ => rfl | ⟨1, _⟩ => rfl)

/-- The region's bias operand is the bias as one row. -/
theorem b_entry (c : Dev nD) (o : Fin 4096) :
    V m c main_v13 (ix2 (0 : Fin 1) o) = m ((c : Thread nD τ).loc main_arg2) (ix1 o) := by
  have e : V m c main_v13 = shapeCast S1x4096 (m ((c : Thread nD τ).loc main_arg2)) shapeCasts_S4096_S1x4096 := by
    show StableHlo.after hostOps0 (fun b => m (c, b)) (Proc.devRef .tc main_v13) = _
    after_results
    rfl
  rw [e]
  refine shapeCast_apply _ _ (ix2 (0 : Fin 1) o) (ix1 o) ?_
  rw [Shape.rowMajor_val_one, Shape.rowMajor_val_two]
  show o.val = 0 * 4096 + o.val
  omega

end Cert.KernelIdeal.Head

end
-- ==== Proof.Spec.lean ====
import Idealize.ShloMosaic.Lib.ValueIdx
import Idealize.ShloMosaic.PureOps.Ideal

noncomputable section

open Idealize.ShloMosaic Idealize.ShloMosaic.ValueIdx

namespace Cert.TernaryLinear

/-- The dense layer over the extended reals at one output position: for batch `a`, sequence position `s` and output
    feature `o`, the sum over the 4096 input features `k` of `x[a, s, k] · Q[o, k]`, plus `b[o]` — `Q` the
    (ternary) weight matrix, laid out [out, in]. -/
def linAt (x : (⟨3, ![8, 2048, 4096]⟩ : Shape).Idx → EReal) (Q : (⟨2, ![4096, 4096]⟩ : Shape).Idx → EReal)
    (b : (⟨1, ![4096]⟩ : Shape).Idx → EReal) (a : Fin 8) (s : Fin 2048) (o : Fin 4096) : EReal :=
  (∑ k : Fin 4096, x (ix3 a s k) * Q (ix2 o k)) + b (ix1 o)

/-- The whole result array `x · Qᵀ + b`. -/
def lin (x : (⟨3, ![8, 2048, 4096]⟩ : Shape).Idx → EReal) (Q : (⟨2, ![4096, 4096]⟩ : Shape).Idx → EReal)
    (b : (⟨1, ![4096]⟩ : Shape).Idx → EReal) : (⟨3, ![8, 2048, 4096]⟩ : Shape).Idx → EReal :=
  fun i => linAt x Q b (i 0) (i 1) (i 2)

theorem lin_apply (x : (⟨3, ![8, 2048, 4096]⟩ : Shape).Idx → EReal) (Q : (⟨2, ![4096, 4096]⟩ : Shape).Idx → EReal)
    (b : (⟨1, ![4096]⟩ : Shape).Idx → EReal) (a : Fin 8) (s : Fin 2048) (o : Fin 4096) :
    lin x Q b (ix3 a s o) = linAt x Q b a s o := rfl

end Cert.TernaryLinear

end
-- ==== Proof.KRun.lean ====
import proofs.«136303_j20255065767968_1_alg».proof.Proof.KFinal
import proofs.«136303_j20255065767968_1_alg».proof.Proof.KHead
import proofs.«136303_j20255065767968_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Blocks

variable (m : (ℓ : Loc nD τ sig) → Buf (Elt Ideal) ℓ) (ρ : Dev nD → PrngReg)

/-- The region's result array as one function of its three operands as the region finds them. -/
def result14 (c : Dev nD) : Buf (Elt Ideal) ((c : Thread nD τ).loc main_v14) :=
  fun i => rowDot (V m c main_v12) (V m c main_v11) (V m c main_v13) (i 0).val (i 1).val

/-- What a last step writes back is its block of that function. -/
theorem flushed_eq (c : Dev nD) (t : Fin cfg0.N) (hf : (cfg0.win 3).flush t = true) :
    (dats m 0 c).flushed 3 t = ((cfg0.win 3).blk t).view.read (Elt Ideal) (result14 m c) := by
  have h3 : t.val % 4 = 3 := (flush0_3 t).mp hf
  obtain ⟨-, -, -, -, -, -, e0, e1⟩ := idx_facts t
  show (cfg0.win 3).cut (grid0.coords t) ((dats m 0 c).after 3 t) = _
  rw [after0_3]
  funext y
  rw [View.read_apply]
  have hy : ∀ y' : S1024x1024.Idx, (outsAt0 m c t.val t.isLt).1 y' = result14 m c (((cfg0.win 3).blk t).view.emb y') := by
    intro y'
    obtain ⟨p, o, rfl⟩ : ∃ (p o : Fin 1024), y' = ix2 p o := ⟨y' 0, y' 1, eq_ix2 y'⟩
    rw [out_block m c t h3 p o]
    unfold result14
    have a0 : ((((cfg0.win 3).blk t).view.emb (ix2 p o)) 0).val = 1024 * (t.val / 16) + p.val := by
      show win0_3.index t (0 : Fin 2) * 1024 + 1 * p.val = _; rw [e0]; omega
    have a1 : ((((cfg0.win 3).blk t).view.emb (ix2 p o)) 1).val = 1024 * (t.val / 4 % 4) + o.val := by
      show win0_3.index t (1 : Fin 2) * 1024 + 1 * o.val = _; rw [e1]; omega
    rw [a0, a1]
  exact hy y

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v14).slice (win0_3.rect t)).set ↔ _
  rw [View.set_slice_whole, Rect.mem_set_unit]
  exact Iff.rfl

/-- Every index of the result array lies in the block some last step writes back: row tile `i₀ / 1024`, column tile
    `i₁ / 1024`, step 3. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, e0, e1⟩ := idx_facts t
  refine ⟨t, (flush0_3 t).mpr (by rw [ht]; omega), ?_⟩
  rw [mem_blk]
  intro a
  match a with
  | ⟨0, _⟩ => show win0_3.index t (0 : Fin 2) * 1024 ≤ (i 0).val ∧ (i 0).val < win0_3.index t (0 : Fin 2) * 1024 + 1024
              rw [e0, ht]; omega
  | ⟨1, _⟩ => show win0_3.index t (1 : Fin 2) * 1024 ≤ (i 1).val ∧ (i 1).val < win0_3.index t (1 : Fin 2) * 1024 + 1024
              rw [e1, ht]; omega

/-- So the region's result array ends holding that function. -/
theorem final14 (c : Dev nD) : (dats m 0 c).arrAt 3 cfg0.N = result14 m c :=
  (dats m 0 c).arrAt_eq_of_cover 3 (result14 m c) (fun t hf => flushed_eq m c t hf) (cover)

/-- After the region the result array is reshaped to [8, 2048, 4096]. -/
theorem tail15 (c : Dev nD) : Pipeline.afterTail₀ cfgs (dats m) 0 (V0 m) [hostOps1] c main_v15
    = shapeCast S8x2048x4096 (result14 m c) shapeCasts_S16384x4096_S8x2048x4096 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = result14 m c :=
    (Pipeline.withArrays_arr spec0 launch0.win.arr_inj c _ _ 3).trans (final14 m c)
  rw [e]
  rfl

/-- Read at `[a, s, o]`, the reshaped result is the dense layer of the inputs: row `2048 · a + s` of the flattened input is
    `x[a, s, ·]`, column `o` of the transposed ternary weights is their row `o`, and adding zero changes nothing. -/
theorem result15_eq (c : Dev nD) :
    shapeCast S8x2048x4096 (result14 m c) shapeCasts_S16384x4096_S8x2048x4096
      = Cert.TernaryLinear.lin (m ((c : Thread nD τ).loc main_arg0)) (Head.ternary (m ((c : Thread nD τ).loc main_arg1)))
          (m ((c : Thread nD τ).loc main_arg2)) := by
  funext i
  obtain ⟨a, s, o, rfl⟩ : ∃ (a : Fin 8) (s : Fin 2048) (o : Fin 4096), i = ix3 a s o := ⟨i 0, i 1, i 2, eq_ix3 i⟩
  have hr : 2048 * a.val + s.val < 16384 := by omega
  rw [shapeCast_apply (result14 m c) _ (ix3 a s o) (ix2 (⟨2048 * a.val + s.val, hr⟩ : Fin 16384) o) (by
    show (S16384x4096.rowMajor (ix2 (⟨2048 * a.val + s.val, hr⟩ : Fin 16384) o)).val = (S8x2048x4096.rowMajor (ix3 a s o)).val
    rw [Shape.rowMajor_val_two, Shape.rowMajor_val_three]
    show (2048 * a.val + s.val) * 4096 + o.val = (a.val * 2048 + s.val) * 4096 + o.val
    ring), Cert.TernaryLinear.lin_apply]
  unfold result14 rowDot Cert.TernaryLinear.linAt
  show (0 + ∑ k : Fin 4096, at2 (R := 16384) (K := 4096) (V m c main_v12) (2048 * a.val + s.val) k.val * at2 (R := 4096) (K := 4096) (V m c main_v11) k.val o.val)
      + at2 (R := 1) (K := 4096) (V m c main_v13) 0 o.val = _
  rw [zero_add]
  refine congrArg₂ (fun u v : EReal => u + v) (Finset.sum_congr rfl fun k _ => ?_) ?_
  · rw [at2_fin (V m c main_v12) (⟨2048 * a.val + s.val, hr⟩ : Fin 16384) k, at2_fin (V m c main_v11) k o,
      Head.x_rows m c a s k ⟨2048 * a.val + s.val, hr⟩ rfl, Head.w_entry m c k o]
  · exact (at2_fin (V m c main_v13) (0 : Fin 1) o).trans (Head.b_entry m c o)

/-- THE KERNEL'S RUN, READ: every weakly fair execution terminates with the result at the dense layer of the inputs and
    the kernel's ternary weights, and the arguments unchanged. -/
theorem run : θ_run defs (onTc (τ := τ) (main (F := Ideal))) ⟨m, fun _ => 0, ρ⟩ fun r => ∀ c : Dev nD,
      r.2.mem ((c.tc : Thread nD τ).loc main_v15)
        = Cert.TernaryLinear.lin (m ((c.tc : Thread nD τ).loc main_arg0)) (Head.ternary (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans ((tail15 m c).trans (result15_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Acc

end
-- ==== Proof.RefValue.lean ====
import proofs.«136303_j20255065767968_1_alg».proof.Proof.Gen.ReferenceIdeal.Run
import proofs.«136303_j20255065767968_1_alg».proof.Proof.Gen.ReferenceIdeal.Read
import proofs.«136303_j20255065767968_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.TernaryLinear

/-- The reference's result is the dense layer of `x`, its own ternary weights and `b`: the einsum contracts `x`'s last
    axis with the weights' second, and the bias is broadcast over batch and sequence. -/
theorem result_eq (x : (⟨S8x2048x4096, .f32⟩ : BufTy).Contents (Elt Ideal)) (W : (⟨S4096x4096, .f32⟩ : BufTy).Contents (Elt Ideal))
    (b : (⟨S4096, .f32⟩ : BufTy).Contents (Elt Ideal)) :
    val_main_v13 (F := Ideal) x W b = lin x (val_main_v9 (F := Ideal) W) b := by
  funext i
  obtain ⟨a, s, o, rfl⟩ : ∃ (a : Fin 8) (s : Fin 2048) (o : Fin 4096), i = ix3 a s o := ⟨i 0, i 1, i 2, eq_ix3 i⟩
  have el : ∀ k : Fin 4096, lidx_main_v10 (ix3 a s o) k = ix3 a s k := fun k => funext fun d => Fin.ext (by
    match d with | ⟨0, _⟩ => rfl | ⟨1, _⟩ => rfl | ⟨2, _⟩ => rfl)
  have er : ∀ k : Fin 4096, ridx_main_v10 (ix3 a s o) k = ix2 o k := fun k => funext fun d => Fin.ext (by
    match d with | ⟨0, _⟩ => rfl | ⟨1, _⟩ => rfl)
  have eb : idx_main_v11 (idx_main_v12 (ix3 a s o)) = ix1 o := funext fun d => Fin.ext (by
    match d with | ⟨0, _⟩ => rfl)
  rw [val_main_v13_apply, val_main_v10_apply, val_main_v12_apply, val_main_v11_apply, lin_apply]
  simp only [el, er, eb]
  rfl

end Cert.ReferenceIdeal.RefValue

end
-- ==== Proof.Bridge.lean ====
import proofs.«136303_j20255065767968_1_alg».proof.Proof.KHead
import proofs.«136303_j20255065767968_1_alg».proof.Proof.Gen.ReferenceIdeal.Read

noncomputable section

open Idealize.ShloMosaic Idealize.ShloMosaic.ValueIdx

namespace Cert.Bridge

/-- The two programs quantize the weights alike: the sign of each entry where its absolute value exceeds the threshold,
    zero elsewhere, the kernel's threshold `0.5 · mean|W|` and the reference's `mean|W| · 0.5` being one extended real
    (multiplication of extended reals is commutative, infinities included). -/
theorem ternary_eq (W : (⟨Cert.KernelIdeal.S4096x4096, .f32⟩ : BufTy).Contents (Elt Ideal)) :
    Cert.KernelIdeal.Head.ternary (F := Ideal) W = Cert.ReferenceIdeal.Read.val_main_v9 (F := Ideal) W := by
  have hthr : mulf (constant (F := Ideal) Cert.KernelIdeal.S_ .f32 0x3F000000#32)
        (Host.divf (Host.reduceAdd (Host.absf W) (constant (F := Ideal) Cert.KernelIdeal.S_ .f32 0x00000000#32)
          Cert.KernelIdeal.Facts₀.reducesTo_S4096x4096_S_d0_1 Cert.KernelIdeal.Facts₀.h_S_) (constant (F := Ideal) Cert.KernelIdeal.S_ .f32 0x4B800000#32))
      = Cert.ReferenceIdeal.Read.val_main_v5 (F := Ideal) W := by
    funext i
    exact mul_comm _ _
  unfold Cert.KernelIdeal.Head.ternary
  rw [hthr]
  rfl

end Cert.Bridge

end
-- ==== Proof.lean ====
/-
  A dense layer with ternary weights: `y = x · Qᵀ + b` for `x` of shape [8, 2048, 4096], where `Q` holds the sign of each
  entry of `W` [4096, 4096] whose absolute value exceeds half the mean absolute value of `W`, and zero elsewhere.

  The kernel computes `Q` on the host, transposes it, flattens `x` to 16384 rows, and multiplies on a grid of
  16 row tiles × 4 column tiles × 4 contraction steps of 1024: an accumulator tile is zeroed at a contraction's first
  step, each step adds the product of its two 1024 × 1024 blocks, and the last step adds the bias row and writes the
  output tile; the result is reshaped back.  The reference is `einsum('bsi,oi->bso', x, Q) + b`.

  Over the extended reals every float operation is exact and a change of format is the identity, so the kernel's
  output entry (r, o) is `((((0 + Σ₀) + Σ₁) + Σ₂) + Σ₃) + b[o]`, `Σₛ` the sum over contraction positions
  `1024·s … 1024·s + 1023` of `x[r, k] · Q[o, k]`, and the reference's is `Σ_{k<4096} x[r, k] · Q[o, k] + b[o]`.  The two agree
  because addition of extended reals is commutative and associative (infinities included: no finiteness of the inputs is
  used), and the two thresholds `0.5 · mean|W|` and `mean|W| · 0.5` agree because multiplication is commutative.
  The ideal pass rewrote nothing, so the kernel's idealization is its own text read over the extended reals.
-/
import proofs.«136303_j20255065767968_1_alg».proof.Defs
import proofs.«136303_j20255065767968_1_alg».proof.Proof.Gen.Kernel
import proofs.«136303_j20255065767968_1_alg».proof.Proof.Gen.Kernel.Frame
import proofs.«136303_j20255065767968_1_alg».proof.Proof.Gen.KernelIdeal
import proofs.«136303_j20255065767968_1_alg».proof.Proof.Gen.KernelIdeal.Frame
import proofs.«136303_j20255065767968_1_alg».proof.Proof.Gen.ReferenceIdeal
import proofs.«136303_j20255065767968_1_alg».proof.Proof.Gen.ReferenceIdeal.Run
import proofs.«136303_j20255065767968_1_alg».proof.Proof.Gen.ReferenceIdeal.Read
import proofs.«136303_j20255065767968_1_alg».proof.Proof.Gen.Pre_finite_inputs
import proofs.«136303_j20255065767968_1_alg».proof.Proof.KRun
import proofs.«136303_j20255065767968_1_alg».proof.Proof.RefValue
import proofs.«136303_j20255065767968_1_alg».proof.Proof.Bridge
import Idealize.ShloMosaic.Adequacy
import Idealize.ShloMosaic.Init

noncomputable section

namespace Cert.Proof

open Idealize.ShloMosaic Idealize.ShloMosaic.TcCoe Idealize.SL.Sem

/-- The three programs run to the end without a fault and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both idealized programs end with the dense layer of the inputs and the ternary weights: the kernel's result by the
    fold over its contraction steps, the reference's by its one contraction, and their ternary weights are one array. -/
theorem algebraic : Cert.algebraic_KernelIdeal_ReferenceIdeal := by
  intro m ρ m' ρ' _ hagree
  refine ⟨fun c => Cert.TernaryLinear.lin (m ((c.tc : Thread Cert.KernelIdeal.nD Cert.KernelIdeal.τ).loc Cert.KernelIdeal.main_arg0))
      (Cert.KernelIdeal.Head.ternary (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1, (hagree c).2.2,
    ← Cert.Bridge.ternary_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
